-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) (main_arg2 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192 : Shape := ⟨1, ![8192]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S1x1, .f32⟩
  | .hbm, ⟨4, _⟩ => ⟨S_, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S1x1, .f32⟩
  | .local _ .vmem, ⟨4, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_off1 (i : grid0.Coords) : Fin 1 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  ![v4.toNat]
def k0_off2 (i : grid0.Coords) : Fin 1 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  ![v7.toNat]
def k0_cond2 (i : grid0.Coords) : BitVec 1 :=
  let arg0 : BitVec 32 := BitVec.ofNat 32 (i 0).val
  let c7_i32 : BitVec 32 := 7#32
  let v73 : BitVec 1 := Scalar.cmpi .eq arg0 c7_i32
  let arg1 : BitVec 32 := BitVec.ofNat 32 (i 1).val
  let c7_i32_19 : BitVec 32 := 7#32
  let v74 : BitVec 1 := Scalar.cmpi .eq arg1 c7_i32_19
  let v75 : BitVec 1 := Scalar.andi v73 v74
  let v76 : BitVec 32 := Scalar.extui v75
  let c0_i32_20 : BitVec 32 := 0#32
  let v77 : BitVec 1 := Scalar.cmpi .ne v76 c0_i32_20
  v77

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  h_S1024 : 0 < S1024.numel
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024.size a ≤ S8192.size a
  k0_off2_inb : ∀ i : grid0.Coords, ∀ a, (k0_off2 i) a + S1024.size a ≤ S8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S8192.size a
  hwx0_0 : ∀ i : grid0.Coords, EltTy.bits .f32 = 32 ∨ (Rect.block (s := S8192) S8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8192.size a
  hwx0_1 : ∀ i : grid0.Coords, EltTy.bits .f32 = 32 ∨ (Rect.block (s := S8192) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .i1⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Cases.lean ====
/-
  What one grid step leaves behind, case by case, as values.

  A step reads, of each of the three argument vectors, the 1024 entries from 1024·i₀ (its row slice) and the 1024
  entries from 1024·i₁ (its column slice), where (i₀, i₁) are the step's grid coordinates; it then replaces the
  accumulator by `stepOf`: the body's step function of those six slices and of the accumulator's old contents.
  * At the first step the accumulator is first reset, so the old contents are the reset value (`acc_first`).
  * At a middle step they are what the step before left (`acc_middle`).
  * At the last step likewise (`acc_last`), and the output block receives the body's final function of the NEW
    accumulator (`out_last`).
  Each is the step's one covering store read back; the loads read whole buffers through unit-stride rectangles.
-/
import proofs.«179843_j19138374271444_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The row slice of a vector at grid coordinates `i`: its 1024 entries from the step's row offset. -/
abbrev rowOf (i : grid0.Coords) (x : Vec F S8192 .f32) : Vec F S1024 .f32 :=
  View.ld x (Rect.unit (s := S8192) (k0_off1 i) S1024.size (k0_off1_inb i))

/-- The column slice: its 1024 entries from the step's column offset. -/
abbrev colOf (i : grid0.Coords) (x : Vec F S8192 .f32) : Vec F S1024 .f32 :=
  View.ld x (Rect.unit (s := S8192) (k0_off2 i) S1024.size (k0_off2_inb i))

/-- The accumulator after a step at coordinates `i`, from the three vectors and the accumulator's old contents. -/
def stepOf (i : grid0.Coords) (x0 x1 x2 : Vec F S8192 .f32) (old : Vec F S1x1 .f32) : Vec F S1x1 .f32 :=
  k0_pay2 (k0_pay4 (rowOf i x0) (colOf i x0)) (k0_pay5 (rowOf i x0) (colOf i x0) (rowOf i x1) (colOf i x1))
    (k0_pay6 (rowOf i x2)) (colOf i x2) old

/-- A middle step leaves the step function of the old accumulator. -/
theorem acc_middle (c : Dev nD) (i : grid0.Coords) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 x1 x2 : Vec F S8192 .f32) (xs0 : Vec F S1x1 .f32) :
    sout0_B_0 c i arg2 harg2 arg3 harg3 arg4 harg4 arg5 harg5 arg6 harg6 hc0 hc1 x0 x1 x2 xs0 = stepOf i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S1x1) hz]
  rfl

/-- The last step leaves the same in the accumulator … -/
theorem acc_last (c : Dev nD) (i : grid0.Coords) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 x1 x2 : Vec F S8192 .f32) (xs0 : Vec F S1x1 .f32) :
    sout0_C_0 c i arg2 harg2 arg3 harg3 arg4 harg4 arg5 harg5 arg6 harg6 hc0 hc1 x0 x1 x2 xs0 = stepOf i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1x1) hz]
  rfl

/-- … and in the output block the final function of that new accumulator, read back from the store just made. -/
theorem out_last (c : Dev nD) (i : grid0.Coords) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 x1 x2 : Vec F S8192 .f32) (xs0 : Vec F S1x1 .f32) :
    out0_C_3 c i arg2 harg2 arg3 harg3 arg4 harg4 arg5 harg5 arg6 harg6 hc0 hc1 x0 x1 x2 xs0 = k0_pay3 (stepOf i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg6.read_unread,
    View.ld_unit_zero (S := S1x1) hz]
  rfl

/-- The first step resets the accumulator, reads the reset value back, and leaves the step function of it. -/
theorem acc_first (c : Dev nD) (i : grid0.Coords) (arg2 : Memref sig .tc .vmem S8192 .f32) (harg2 : arg2.IsWhole) (arg3 : Memref sig .tc .vmem S8192 .f32) (harg3 : arg3.IsWhole) (arg4 : Memref sig .tc .vmem S8192 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 x1 x2 : Vec F S8192 .f32) :
    sout0_A_0 c i arg2 harg2 arg3 harg3 arg4 harg4 arg5 harg5 arg6 harg6 hc0 hc1 x0 x1 x2 = stepOf i x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread]
  rfl

end Cert.KernelIdeal.Cases

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.PairLoss.lean ====
/-
  The pairwise ranking loss, as one function of the three argument vectors.

  For scores `p`, labels `g` and weights `w` over 8192 items, the pair (a, b) contributes the hinge
      max 0 (margin - dir · (w a + w b) · ½ · (p a - p b)),
  where `dir` is +1 when `p a > p b`, -1 when `p a < p b`, and on a tie of the scores minus the sign of the
  label difference `g a - g b`. The result is the mean of the 8192² contributions: their sum, from zero,
  divided by 8192².  Everything is read on the extended reals, with the float words left as the words they are.

  Two facts join the two programs that compute it:
  * the tie-break written with two comparisons, `0 - (if g > 0 then 1 else if g < 0 then -1 else 0)`, is minus
    the sign function, and a product may be re-associated (`hingeK_eq`) — neither needs a finite argument;
  * the 8192 × 8192 pairs are the 8 × 8 tiles of 1024 × 1024 pairs, so the total is the sum of the tiles' sums, in
    whatever order the tiles are visited (`sum_tiles`, `sum_points`): a regrouping of a finite sum in a commutative
    monoid, which needs no finiteness either.
-/
import Idealize.ShloMosaic.PureOps.Ideal.Laws
import Idealize.ShloMosaic.Lib.ValueIdx
import proofs.«179843_j19138374271444_1_alg».proof.Proof.LibSumRegroup

noncomputable section

open scoped BigOperators

namespace Cert.PairLoss

open Idealize.ShloMosaic Idealize.ShloMosaic.ValueIdx

/-! ## The float words of the two programs -/

abbrev Z : EReal := Ideal.ofBits .f32 0x00000000#32
abbrev ONE : EReal := Ideal.ofBits .f32 0x3F800000#32
abbrev NEG : EReal := Ideal.ofBits .f32 0xBF800000#32
abbrev HALF : EReal := Ideal.ofBits .f32 0x3F000000#32
abbrev MARGIN : EReal := Ideal.ofBits .f32 0x3DCCCCCD#32
abbrev COUNT : EReal := Ideal.ofBits .f32 0x4C800000#32

theorem Z_eq : Z = 0 := Ideal.ofBits_zero_f32
theorem ONE_eq : ONE = 1 := IdealRules.sign_bit.ideal_onePat .f32
theorem NEG_eq : NEG = -1 := IdealRules.sign_bit.ideal_negOnePat .f32

/-! ## One pair -/

/-- The direction of a pair: +1 above a score difference `d` of zero, -1 below, and at a tie minus the sign of the
    label difference `g`. -/
def dir (d g : EReal) : EReal :=
  Scalar.select (Ideal.cmp .ogt d Z) ONE (Scalar.select (Ideal.cmp .olt d Z) NEG (-(Ideal.sign g)))

/-- The same with the tie-break spelt by two comparisons and a subtraction from zero. -/
def dirK (d g : EReal) : EReal :=
  Scalar.select (Ideal.cmp .ogt d Z) ONE (Scalar.select (Ideal.cmp .olt d Z) NEG
    (Z - Scalar.select (Ideal.cmp .ogt g Z) ONE (Scalar.select (Ideal.cmp .olt g Z) NEG Z)))

/-- `0 - (if g > 0 then 1 else if g < 0 then -1 else 0) = -sign g` on every extended real. -/
theorem tie_eq (g : EReal) :
    Z - Scalar.select (Ideal.cmp .ogt g Z) ONE (Scalar.select (Ideal.cmp .olt g Z) NEG Z) = -(Ideal.sign g) := by
  simp only [Z_eq, ONE_eq, NEG_eq, Scalar.select, Ideal.cmp]
  by_cases hgt : 0 < g
  · simp [hgt, Ideal.sign_of_pos hgt]
  · by_cases hlt : g < 0
    · simp [hgt, hlt, Ideal.sign_of_neg hlt]
    · have h0 : g = 0 := le_antisymm (not_lt.mp hgt) (not_lt.mp hlt)
      simp [h0, Ideal.sign_zero]

theorem dirK_eq (d g : EReal) : dirK d g = dir d g := by
  unfold dirK dir; rw [tie_eq]

/-- The hinge of one pair, from the score difference `d`, the label difference `g` and the weight sum `ws`. -/
def hinge (d g ws : EReal) : EReal := max Z (MARGIN - dir d g * ws * HALF * d)

/-- With the tie-break by comparisons and the half taken of the weights first: the same extended real. -/
theorem hingeK_eq (d g ws : EReal) : max Z (MARGIN - dirK d g * (ws * HALF) * d) = hinge d g ws := by
  unfold hinge; rw [dirK_eq, ← mul_assoc]

/-! ## All pairs -/

abbrev V8192 : Type := (⟨1, ![8192]⟩ : Shape).Idx → EReal

/-- The contribution of the pair (a, b). -/
def lossAt (p g w : V8192) (a b : Fin 8192) : EReal :=
  hinge (p (ix1 a) - p (ix1 b)) (g (ix1 a) - g (ix1 b)) (w (ix1 a) + w (ix1 b))

/-- The sum of all contributions. -/
def total (p g w : V8192) : EReal := ∑ a : Fin 8192, ∑ b : Fin 8192, lossAt p g w a b

/-- The mean: the sum, from zero, over the number of pairs. -/
def mean (p g w : V8192) : EReal := Ideal.div (Z + total p g w) COUNT

/-! ## The same sum, tile by tile -/

/-- Item `a` of block `c`: 1024·c + a. -/
abbrev item (c : Fin 8) (a : Fin 1024) : Fin 8192 := ⟨1024 * c.val + a.val, by omega⟩

/-- The sum over the tile (c, d): rows of block `c` against columns of block `d`. -/
def tile (p g w : V8192) (c d : Fin 8) : EReal :=
  ∑ a : Fin 1024, ∑ b : Fin 1024, lossAt p g w (item c a) (item d b)

/-- A sum over 8192 items is the double sum over blocks and items of a block. -/
theorem sum_items {M : Type*} [AddCommMonoid M] (f : Fin 8192 → M) :
    ∑ k : Fin 8192, f k = ∑ c : Fin 8, ∑ a : Fin 1024, f (item c a) := by
  rw [Cert.Lib.SumRegroup.sum_fin_mul 8 1024 8192 (by norm_num) f]
  refine Finset.sum_congr rfl fun c _ => Finset.sum_congr rfl fun a _ => congrArg f (Fin.ext ?_)
  show a.val + 1024 * c.val = 1024 * c.val + a.val
  omega

/-- The 64 tiles partition the pairs. -/
theorem sum_tiles (p g w : V8192) : ∑ c : Fin 8, ∑ d : Fin 8, tile p g w c d = total p g w := by
  unfold total tile
  rw [sum_items]
  refine Finset.sum_congr rfl fun c _ => ?_
  rw [Finset.sum_comm]
  refine Finset.sum_congr rfl fun a _ => ?_
  rw [sum_items]

/-- The tile visited at step `t` of the row-major walk over the 8 × 8 tiles (zero past the last step). -/
def pointTile (p g w : V8192) (t : ℕ) : EReal :=
  if h : t < 64 then tile p g w ⟨t / 8, by omega⟩ ⟨t % 8, by omega⟩ else 0

/-- The walk visits every tile once: its 64 steps sum to the total. -/
theorem sum_points (p g w : V8192) : ∑ t ∈ Finset.range 64, pointTile p g w t = total p g w := by
  rw [← sum_tiles, ← Fin.sum_univ_eq_sum_range (fun t => pointTile p g w t) 64,
    Cert.Lib.SumRegroup.sum_fin_mul 8 8 64 (by norm_num)]
  refine Finset.sum_congr rfl fun c _ => Finset.sum_congr rfl fun d _ => ?_
  have hv : ((Fin.cast (by norm_num : 8 * 8 = 64) (finProdFinEquiv (c, d)) : Fin 64) : ℕ) = d.val + 8 * c.val := rfl
  have hlt : d.val + 8 * c.val < 64 := by omega
  rw [hv]
  unfold pointTile
  rw [dif_pos hlt]
  have e1 : (⟨(d.val + 8 * c.val) / 8, by omega⟩ : Fin 8) = c :=
    Fin.ext (by show (d.val + 8 * c.val) / 8 = c.val; omega)
  have e2 : (⟨(d.val + 8 * c.val) % 8, by omega⟩ : Fin 8) = d :=
    Fin.ext (by show (d.val + 8 * c.val) % 8 = d.val; omega)
  rw [e1, e2]

end Cert.PairLoss

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibTotalSum.lean ====
/-
  Totals. A sum over every index of an array survives the operations that only regroup it: a reduction by
  addition along any axes (each source index lands in exactly one fibre), a change of shape (a bijection of
  index sets), and the reading of a one-element array at its only index. Beside these, the one arithmetic
  fact about counting: a wrapping 32-bit sum of zero-or-one words, over fewer than 2^31 indices, read as a
  signed integer, is the number of ones — so it is the sum of the words read one at a time.
-/
import Idealize.ShloMosaic.PureOps.Ideal.Laws
import Idealize.ShloMosaic.PureOps.Reduce
import Idealize.ShloMosaic.Lib.ValueIdx

noncomputable section

namespace TotalSum

open Idealize.ShloMosaic

/-- The real-to-extended-real inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reduction by addition keeps the total: summing the reduced array over its indices is summing the
    source over its own, because the fibres of the index projection partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector reduction as a kernel body prints it, read at the exact instance. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same with the accumulator spelt as a kernel body prints it: the 32-bit zero word, known to be itself. -/
theorem sum_multiReduction_add_zero {s t : Shape} {axes : List (Fin s.rank)} (src : FVec Ideal s .f32)
    (h : s.Reduces axes t) (hacc : (0x00000000#32 : BitVec 32) = 0x00000000#32) :
    ∑ j : t.Idx, multiReduction .add axes t src 0x00000000#32 h (.inl rfl) hacc j = ∑ i : s.Idx, src i :=
  sum_reduceAdd h src

/-- A change of shape keeps the total: it reads the source through a bijection of the index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- Summing `g` of two arrays read through the same change of shape is summing `g` of the arrays. -/
theorem sum_shapeCast₂ {M : Type} [AddCommMonoid M] {α : Type} {s t : Shape} (x y : s.Idx → α) (h : s.ShapeCasts t)
    (g : α → α → M) :
    ∑ j : t.Idx, g (shapeCast t x h j) (shapeCast t y h j) = ∑ i : s.Idx, g (x i) (y i) := by
  unfold shapeCast
  exact Equiv.sum_comp (Shape.reshapeEquiv h) fun i => g (x i) (y i)

/-- An array with one index is, at that index, its own total. -/
theorem eq_sum_of_subsingleton {M : Type*} [AddCommMonoid M] {ι : Type*} [Fintype ι] [Subsingleton ι] (w : ι → M) (i : ι) :
    w i = ∑ j : ι, w j :=
  (Fintype.sum_subsingleton w i).symm

/-- The number of indices of a shape is its number of elements. -/
theorem card_idx (s : Shape) : Fintype.card s.Idx = s.numel := by
  rw [Fintype.card_congr s.rowMajor, Fintype.card_fin]

/-! ## Counting ones in 32-bit words -/

/-- The unsigned value of a wrapping sum of words is the sum of their unsigned values, modulo 2^32. -/
theorem toNat_fold_add {ι : Type*} (s : Finset ι) (f : ι → BitVec 32) :
    (s.fold IntOp.addi 0#32 f).toNat = (∑ i ∈ s, (f i).toNat) % 2 ^ 32 := by
  classical
  induction s using Finset.induction_on with
  | empty => simp
  | insert a s ha ih =>
    rw [Finset.fold_insert ha, Finset.sum_insert ha]
    show (f a + s.fold IntOp.addi 0#32 f).toNat = _
    rw [BitVec.toNat_add, ih]
    omega

/-- A one-bit word widened to 32 bits is 0 or 1, whether read unsigned or signed. -/
theorem toNat_setWidth_le_one (b : BitVec 1) : (b.setWidth 32).toNat ≤ 1 := by
  have := b.isLt
  rw [BitVec.toNat_setWidth]
  have : b.toNat < 2 := by simpa using b.isLt
  omega

theorem toInt_setWidth_eq (b : BitVec 1) : ((b.setWidth 32).toInt : ℝ) = ((b.setWidth 32).toNat : ℝ) := by
  have h := toNat_setWidth_le_one b
  rw [BitVec.toInt_eq_toNat_of_lt (by omega)]
  exact Int.cast_natCast _

/-- COUNTING. Over fewer than 2^31 indices, the wrapping 32-bit sum of widened one-bit words, read as a signed
    integer and then as a real, is the sum of the words each read that way: the true count never reaches the
    sign bit, so nothing wraps. -/
theorem toInt_fold_add_bits {ι : Type*} [Fintype ι] (hcard : Fintype.card ι < 2 ^ 31) (b : ι → BitVec 1) :
    (((Finset.univ.fold IntOp.addi 0#32 fun i => (b i).setWidth 32).toInt : ℝ) : EReal)
      = ∑ i : ι, ((((b i).setWidth 32).toInt : ℝ) : EReal) := by
  have hle : ∑ i : ι, ((b i).setWidth 32).toNat ≤ Fintype.card ι := by
    calc ∑ i : ι, ((b i).setWidth 32).toNat ≤ ∑ _i : ι, 1 := Finset.sum_le_sum fun i _ => toNat_setWidth_le_one (b i)
      _ = Fintype.card ι := by simp
  have hN : (Finset.univ.fold IntOp.addi 0#32 fun i => (b i).setWidth 32).toNat = ∑ i : ι, ((b i).setWidth 32).toNat := by
    rw [toNat_fold_add]
    exact Nat.mod_eq_of_lt (by omega)
  rw [BitVec.toInt_eq_toNat_of_lt (by rw [hN]; omega), hN, ← coe_sum]
  congr 1
  rw [Int.cast_natCast, Nat.cast_sum]
  exact Finset.sum_congr rfl fun i _ => (toInt_setWidth_eq (b i)).symm

end TotalSum

end
-- ==== Proof.TileSum.lean ====
/-
  The kernel body's arithmetic, read at an entry on the extended reals.

  One grid step loads a row slice and a column slice (1024 entries each) of every argument vector, spreads them to a
  1024 × 1024 tile — entry (a, b) pairs item `a` of the row slice with item `b` of the column slice —, forms each pair's
  hinge, sums the tile, and adds the sum to the running accumulator. Read at an entry:
  * the score-difference tile is `row a - col b` (`diff_apply`), the direction tile is the direction of the pair with the
    tie-break spelt by comparisons (`dir_apply`), the row weights stand in a column (`wcol_apply`);
  * the new accumulator is the old one plus the sum over the tile of the pairs' hinges (`step_apply`): the tile is viewed
    as [1, 1024, 1024] and reduced over its last two axes into one entry, which is therefore the sum over every entry of
    the tile;
  * the value written out at the last step is the accumulator over the pair count (`out_apply`), and the value the first
    step resets the accumulator to is the zero word (`reset_apply`).
-/
import proofs.«179843_j19138374271444_1_alg».proof.Proof.Gen.KernelIdeal.Skeleton
import proofs.«179843_j19138374271444_1_alg».proof.Proof.PairLoss
import proofs.«179843_j19138374271444_1_alg».proof.Proof.LibColumn
import proofs.«179843_j19138374271444_1_alg».proof.Proof.LibTotalSum
import Idealize.ShloMosaic.Lib.ValueLayout

noncomputable section

open scoped BigOperators

namespace Cert.KernelIdeal.TileSum

open Cert.KernelIdeal Cert.KernelIdeal.Gen Idealize.ShloMosaic Idealize.ShloMosaic.ValueIdx Cert.PairLoss

/-- The score-difference tile at (a, b): the row slice at `a` minus the column slice at `b`. -/
theorem diff_apply (r c : Vec Ideal S1024 .f32) (a b : Fin 1024) :
    k0_pay4 (F := Ideal) r c (ix2 a b) = r (ix1 a) - c (ix1 b) := by
  unfold k0_pay4
  rw [subf_apply, Cert.Lib.broadcastTo_a1_ab_apply, broadcastTo_1b_ab_apply, Cert.Lib.shapeCast_a_a1_apply,
    shapeCast_a_1a_apply]

/-- The direction tile at (a, b): the direction of the pair, its tie-break spelt by comparisons. -/
theorem dir_apply (r c gr gc : Vec Ideal S1024 .f32) (a b : Fin 1024) :
    k0_pay5 (F := Ideal) r c gr gc (ix2 a b) = dirK (r (ix1 a) - c (ix1 b)) (gr (ix1 a) - gc (ix1 b)) := by
  unfold k0_pay5
  simp only [select_apply, cmpf_apply, broadcast_apply, subf_apply, diff_apply]
  rw [Cert.Lib.broadcastTo_a1_ab_apply, broadcastTo_1b_ab_apply, Cert.Lib.shapeCast_a_a1_apply, shapeCast_a_1a_apply]
  rfl

/-- The row weights as a column: entry (a, 0) is the row slice at `a`. -/
theorem wcol_apply (wr : Vec Ideal S1024 .f32) (a : Fin 1024) (u : Fin 1) :
    k0_pay6 (F := Ideal) wr (ix2 a u) = wr (ix1 a) := by
  unfold k0_pay6
  rw [Cert.Lib.shapeCast_a_a1_apply]

instance : Subsingleton S1.Idx := ⟨fun x y => funext fun d => by
  match d with
  | ⟨0, _⟩ => exact Subsingleton.elim (α := Fin 1) _ _⟩

/-- A tile viewed as [1, 1024, 1024] and reduced by addition over its last two axes has one entry; read there, it is
    the sum of every entry of the tile. -/
theorem tile_total (T : FVec Ideal S1024x1024 .f32) :
    extractAt ![0, 0, 0]
      (shapeCast S1x1x1
        (multiReduction .add [1, 2] S1 (shapeCast S1x1024x1024 T shapeCasts_S1024x1024_S1x1024x1024) 0x00000000#32
          reduces_S1x1024x1024_S1 (.inl rfl) rfl)
        shapeCasts_S1_S1x1x1) inpos_S1x1x1_p0_0_0
      = ∑ j : S1024x1024.Idx, T j :=
  (TotalSum.eq_sum_of_subsingleton
      (multiReduction .add [1, 2] S1 (shapeCast S1x1024x1024 T shapeCasts_S1024x1024_S1x1024x1024) 0x00000000#32
          reduces_S1x1024x1024_S1 (.inl rfl) rfl)
      (Shape.reshapeEquiv shapeCasts_S1_S1x1x1 fun a => ⟨(![0, 0, 0] : Fin 3 → Nat) a, inpos_S1x1x1_p0_0_0 a⟩)).trans
    ((TotalSum.sum_multiReduction_add_zero (shapeCast S1x1024x1024 T shapeCasts_S1024x1024_S1x1024x1024)
        reduces_S1x1024x1024_S1 rfl).trans
      (TotalSum.sum_shapeCast T shapeCasts_S1024x1024_S1x1024x1024))

/-- One step of the accumulation: the old accumulator plus the sum over the tile of the pairs' hinges, each pair's
    weight halved before it multiplies the direction. -/
theorem step_apply (v12 v40 : FVec Ideal S1024x1024 .f32) (v43 : FVec Ideal S1024x1 .f32) (v45 : Vec Ideal S1024 .f32)
    (old : Vec Ideal S1x1 .f32) (y : S1x1.Idx) :
    k0_pay2 (F := Ideal) v12 v40 v43 v45 old y
      = old y + ∑ a : Fin 1024, ∑ b : Fin 1024,
          max Z (MARGIN - v40 (ix2 a b) * ((v43 (ix2 a (0 : Fin 1)) + v45 (ix1 b)) * HALF) * v12 (ix2 a b)) := by
  unfold k0_pay2
  rw [shapeCast_self, addf_apply, broadcast_apply, tile_total, sum_idx2]
  refine congrArg (HAdd.hAdd (old y)) (Finset.sum_congr rfl fun a _ => Finset.sum_congr rfl fun b _ => ?_)
  rw [maximumf_apply, subf_apply, mulf_apply, mulf_apply, mulf_apply, addf_apply, broadcast_apply, broadcast_apply,
    broadcast_apply, Cert.Lib.broadcastTo_a1_ab_apply, broadcastTo_1b_ab_apply, shapeCast_a_1a_apply]
  rfl

/-- What the last step writes out: the accumulator over the pair count. -/
theorem out_apply (acc : Vec Ideal S1x1 .f32) (y : S1x1.Idx) :
    k0_pay3 (F := Ideal) acc y = Ideal.div (acc y) COUNT := rfl

/-- What the first step resets the accumulator to: the zero word. -/
theorem reset_apply (y : S1x1.Idx) : k0_pay1 (F := Ideal) y = Z := rfl

end Cert.KernelIdeal.TileSum

end
-- ==== Proof.Accumulate.lean ====
/-
  The accumulator along the grid, at the extended reals.

  The grid is walked row-major over 8 × 8 steps; step `t` has coordinates (t / 8, t % 8), so its row slice is block
  `t / 8` and its column slice block `t % 8` of each vector (`row_apply`, `col_apply`: entry `a` of a slice is item
  1024·block + a). Every window's block is the whole vector at every step (`blk0`, `blk1`, `blk2`). Hence one step adds
  to the accumulator exactly the sum over the tile it visits (`step_tile`, `step_point`), and, the first step starting
  from the zero word, the accumulator after step `n` is zero plus the tiles visited so far (`acc_eq`, by induction on
  the step). After the last step that is zero plus the sum over all pairs, and the
  output block holds it divided by the pair count: the mean (`out_eq`).
-/
import proofs.«179843_j19138374271444_1_alg».proof.Proof.Cases
import proofs.«179843_j19138374271444_1_alg».proof.Proof.TileSum

set_option maxRecDepth 16384

noncomputable section

open scoped BigOperators
open Idealize.ShloMosaic Idealize.ShloMosaic.TcCoe Idealize.SL.Sem

namespace Cert.KernelIdeal.Accumulate

open Cert.KernelIdeal Cert.KernelIdeal.Gen Idealize.ShloMosaic.ValueIdx Cert.PairLoss

/-! ## Where a step reads -/

/-- Step `t` of the row-major walk has coordinates (t / 8, t % 8). -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- Every input window sits on block 0 — the whole vector — at every step. -/
theorem index_zero : ∀ t : Fin cfg0.N, win0_0.index t 0 = 0 ∧ win0_1.index t 0 = 0 ∧ win0_2.index t 0 = 0 :=
  (by decide +kernel : ∀ t : Fin grid0.N, win0_0.index t 0 = 0 ∧ win0_1.index t 0 = 0 ∧ win0_2.index t 0 = 0)

/-- Entry `a` of the row slice at coordinates `i` is item `a` of block `i₀`. -/
theorem row_apply (i : grid0.Coords) (c : Fin 8) (hc : (i 0).val = c.val) (x : Vec Ideal S8192 .f32) (a : Fin 1024) :
    Cases.rowOf (F := Ideal) i x (ix1 a) = x (ix1 (item c a)) := by
  show x ((Rect.unit (s := S8192) (k0_off1 i) S1024.size (k0_off1_inb i)).toLoadRect.idx (ix1 a)) = _
  refine congrArg x (funext fun d => ?_)
  match d with
  | ⟨0, _⟩ =>
    refine Fin.ext ?_
    show k0_off1 i 0 + 1 * a.val = 1024 * c.val + a.val
    rw [k0_off1_eq i, ← hc]
    show 1024 * (i 0).val + 1 * a.val = _
    omega

/-- Entry `b` of the column slice is item `b` of block `i₁`. -/
theorem col_apply (i : grid0.Coords) (d : Fin 8) (hd : (i 1).val = d.val) (x : Vec Ideal S8192 .f32) (b : Fin 1024) :
    Cases.colOf (F := Ideal) i x (ix1 b) = x (ix1 (item d b)) := by
  show x ((Rect.unit (s := S8192) (k0_off2 i) S1024.size (k0_off2_inb i)).toLoadRect.idx (ix1 b)) = _
  refine congrArg x (funext fun e => ?_)
  match e with
  | ⟨0, _⟩ =>
    refine Fin.ext ?_
    show k0_off2 i 0 + 1 * b.val = 1024 * d.val + b.val
    rw [k0_off2_eq i, ← hd]
    show 1024 * (i 1).val + 1 * b.val = _
    omega

/-! ## What a step adds -/

/-- A step at coordinates (c, d) adds the sum over the tile (c, d). -/
theorem step_tile (i : grid0.Coords) (c d : Fin 8) (hc : (i 0).val = c.val) (hd : (i 1).val = d.val)
    (x0 x1 x2 : Vec Ideal S8192 .f32) (old : Vec Ideal S1x1 .f32) (y : S1x1.Idx) :
    Cases.stepOf (F := Ideal) i x0 x1 x2 old y = old y + tile x0 x1 x2 c d := by
  unfold Cases.stepOf
  rw [TileSum.step_apply]
  refine congrArg (old y + ·) ?_
  unfold tile
  refine Finset.sum_congr rfl fun a _ => Finset.sum_congr rfl fun b _ => ?_
  rw [TileSum.dir_apply, TileSum.diff_apply, TileSum.wcol_apply, hingeK_eq, row_apply i c hc, row_apply i c hc,
    row_apply i c hc, col_apply i d hd, col_apply i d hd, col_apply i d hd]
  rfl

/-- Step `t` adds the tile the walk visits at `t`. -/
theorem step_point (t : Fin cfg0.N) (x0 x1 x2 : Vec Ideal S8192 .f32) (old : Vec Ideal S1x1 .f32) (y : S1x1.Idx) :
    Cases.stepOf (F := Ideal) (grid0.coords t) x0 x1 x2 old y = old y + pointTile x0 x1 x2 t.val := by
  have hN : t.val < 64 := lt_of_lt_of_eq t.isLt N_0
  rw [step_tile (grid0.coords t) ⟨t.val / 8, by omega⟩ ⟨t.val % 8, by omega⟩ (coords_val t).1 (coords_val t).2]
  unfold pointTile
  rw [dif_pos hN]

/-! ## The blocks are the argument vectors -/

variable (m : (ℓ : Loc nD τ sig) → Buf (Elt Ideal) ℓ)

/-- The three argument vectors on core `c`. -/
abbrev scores (c : Dev nD) : V8192 := m ((c : Thread nD τ).loc main_arg0)
abbrev labels (c : Dev nD) : V8192 := m ((c : Thread nD τ).loc main_arg1)
abbrev weights (c : Dev nD) : V8192 := m ((c : Thread nD τ).loc main_arg2)

theorem blk0 (c : Dev nD) (t : Fin cfg0.N) : (iblk m c 0 t : Vec Ideal S8192 .f32) = scores m c := by
  have hz' : (fun a => win0_0.index t a * main_arg0.ty.shape.size a) = fun _ => 0 := funext fun a => by
    match a with
    | ⟨0, _⟩ => show win0_0.index t 0 * 8192 = 0; rw [(index_zero t).1]
  exact Memref.read_access_unit_zero (Elt Ideal) main_arg0 hz' (fun a => by rw [congrFun hz' a]; simp) (V m c main_arg0)

theorem blk1 (c : Dev nD) (t : Fin cfg0.N) : (iblk m c 1 t : Vec Ideal S8192 .f32) = labels m c := by
  have hz' : (fun a => win0_1.index t a * main_arg1.ty.shape.size a) = fun _ => 0 := funext fun a => by
    match a with
    | ⟨0, _⟩ => show win0_1.index t 0 * 8192 = 0; rw [(index_zero t).2.1]
  exact Memref.read_access_unit_zero (Elt Ideal) main_arg1 hz' (fun a => by rw [congrFun hz' a]; simp) (V m c main_arg1)

theorem blk2 (c : Dev nD) (t : Fin cfg0.N) : (iblk m c 2 t : Vec Ideal S8192 .f32) = weights m c := by
  have hz' : (fun a => win0_2.index t a * main_arg2.ty.shape.size a) = fun _ => 0 := funext fun a => by
    match a with
    | ⟨0, _⟩ => show win0_2.index t 0 * 8192 = 0; rw [(index_zero t).2.2]
  exact Memref.read_access_unit_zero (Elt Ideal) main_arg2 hz' (fun a => by rw [congrFun hz' a]; simp) (V m c main_arg2)

/-! ## The running sum -/

/-- Zero plus the tiles visited up to step `n`. -/
def accAfter (c : Dev nD) (n : ℕ) : EReal :=
  Z + ∑ t ∈ Finset.range (n + 1), pointTile (scores m c) (labels m c) (weights m c) t

/-- The accumulator after step `n` is that running sum. -/
theorem acc_eq (c : Dev nD) : ∀ (n : ℕ) (h : n < cfg0.N) (y : S1x1.Idx), (outsAt0 m c n h).2 y = accAfter m c n
  | 0, h, y => by
    have hA0 : cond0_0 (grid0.coords ⟨0, h⟩) := (hcond0_0 ⟨0, h⟩).mpr rfl
    have hA1 : ¬cond0_1 (grid0.coords ⟨0, h⟩) := fun hh =>
      absurd ((hcond0_1 ⟨0, h⟩).mp hh) (by show ¬(0 : ℕ) % 64 = 63; decide)
    rw [outsAt0_A m c ⟨0, h⟩ rfl (by show ¬(0 : ℕ) % 64 = 63; decide)]
    refine (congrFun (Cases.acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) hA0 hA1
      (iblk m c 0 ⟨0, h⟩) (iblk m c 1 ⟨0, h⟩) (iblk m c 2 ⟨0, h⟩)) y).trans ?_
    rw [blk0, blk1, blk2, step_point]
    unfold accAfter
    rw [Finset.sum_range_one]
    rfl
  | n + 1, h, y => by
    have hN : cfg0.N = 64 := N_0
    have h0 : ¬(⟨n + 1, h⟩ : Fin cfg0.N).val % 64 = 0 := by dsimp only; omega
    have step : ∀ old : Vec Ideal S1x1 .f32, old = (outsAt0 m c n (Nat.lt_of_succ_lt h)).2 →
        Cases.stepOf (F := Ideal) (grid0.coords ⟨n + 1, h⟩) (iblk m c 0 ⟨n + 1, h⟩) (iblk m c 1 ⟨n + 1, h⟩)
          (iblk m c 2 ⟨n + 1, h⟩) old y = accAfter m c (n + 1) := by
      intro old hold
      rw [blk0, blk1, blk2, step_point, hold, acc_eq c n (Nat.lt_of_succ_lt h) y]
      unfold accAfter
      rw [Finset.sum_range_succ _ (n + 1), add_assoc]
    have hc0 : ¬cond0_0 (grid0.coords ⟨n + 1, h⟩) := fun hh => h0 ((hcond0_0 ⟨n + 1, h⟩).mp hh)
    by_cases h1 : (⟨n + 1, h⟩ : Fin cfg0.N).val % 64 = 63
    · rw [outsAt0_C m c ⟨n + 1, h⟩ h0 h1]
      exact (congrFun (Cases.acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) hc0 ((hcond0_1 ⟨n + 1, h⟩).mpr h1)
        (iblk m c 0 ⟨n + 1, h⟩) (iblk m c 1 ⟨n + 1, h⟩) (iblk m c 2 ⟨n + 1, h⟩) _) y).trans (step _ rfl)
    · rw [outsAt0_B m c ⟨n + 1, h⟩ h0 h1]
      exact (congrFun (Cases.acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) hc0
        (fun hh => h1 ((hcond0_1 ⟨n + 1, h⟩).mp hh))
        (iblk m c 0 ⟨n + 1, h⟩) (iblk m c 1 ⟨n + 1, h⟩) (iblk m c 2 ⟨n + 1, h⟩) _) y).trans (step _ rfl)

/-- After the last step the accumulator is zero plus the sum over all pairs. -/
theorem accAfter_last (c : Dev nD) : accAfter m c 63 = Z + total (scores m c) (labels m c) (weights m c) := by
  unfold accAfter
  rw [sum_points]

/-- The output block after the last step holds the mean. -/
theorem out_eq (c : Dev nD) (h : 63 < cfg0.N) (y : S1x1.Idx) :
    (outsAt0 m c 63 h).1 y = mean (scores m c) (labels m c) (weights m c) := by
  have h0 : ¬(⟨63, h⟩ : Fin cfg0.N).val % 64 = 0 := by show ¬(63 : ℕ) % 64 = 0; decide
  have h1 : (⟨63, h⟩ : Fin cfg0.N).val % 64 = 63 := rfl
  rw [outsAt0_C m c ⟨63, h⟩ h0 h1]
  refine (congrFun (Cases.out_last c (grid0.coords ⟨63, h⟩) (ms0_0 ⟨63, h⟩) (hs0_0 ⟨63, h⟩) (ms0_1 ⟨63, h⟩) (hs0_1 ⟨63, h⟩) (ms0_2 ⟨63, h⟩) (hs0_2 ⟨63, h⟩) (ms0_3 ⟨63, h⟩) (hs0_3 ⟨63, h⟩) scM0_0 (Memref.isWhole_whole _)
    (fun hh => h0 ((hcond0_0 ⟨63, h⟩).mp hh)) ((hcond0_1 ⟨63, h⟩).mpr h1)
    (iblk m c 0 ⟨63, h⟩) (iblk m c 1 ⟨63, h⟩) (iblk m c 2 ⟨63, h⟩) _) y).trans ?_
  rw [TileSum.out_apply, blk0, blk1, blk2, step_point]
  show Ideal.div ((outsAt0 m c 62 _).2 y + _) COUNT = _
  rw [acc_eq m c 62 _ y]
  unfold mean
  rw [← accAfter_last]
  unfold accAfter
  rw [Finset.sum_range_succ _ 63, add_assoc]

end Cert.KernelIdeal.Accumulate

end
-- ==== Proof.KernelValue.lean ====
/-
  The kernel's result, at the extended reals, is the mean pairwise hinge.

  The output array has one entry and one block; the pipeline writes the block back once, after the last step, when the
  staging buffer holds the mean (`flushed_eq`); that one write-back covers the array (`final_out`). The program then
  reshapes the [1, 1] array to a scalar, which reads the same entry (`tail_eq`). So every run ends with the result at
  the mean and the three argument vectors unchanged (`run`).
-/
import proofs.«179843_j19138374271444_1_alg».proof.Proof.Accumulate
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Mean

open Cert.KernelIdeal Cert.KernelIdeal.Gen Cert.KernelIdeal.Accumulate Idealize.ShloMosaic.ValueIdx Cert.PairLoss

variable (m : (ℓ : Loc nD τ sig) → Buf (Elt Ideal) ℓ) (ρ : Dev nD → PrngReg)

/-- The mean of core `c`'s argument vectors. -/
abbrev meanOf (c : Dev nD) : EReal := mean (scores m c) (labels m c) (weights m c)

/-- The output array with the mean at its one entry. -/
abbrev outArr (c : Dev nD) : Buf (Elt Ideal) ((c : Thread nD τ).loc main_v0) := fun _ => meanOf m c

/-- The last step. -/
abbrev tLast : Fin cfg0.N := ⟨63, by rw [show cfg0.N = 64 from N_0]; decide⟩

/-- The one write-back, after the last step, writes the mean. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after0_3]
  funext j
  show (outsAt0 m c 63 _).1 _ = meanOf m c
  exact out_eq m c _ _

/-- So the output array ends at the mean: the last step's block is the whole array. -/
theorem final_out (c : Dev nD) : (dats m 0 c).arrAt 3 cfg0.N = outArr m c :=
  (dats m 0 c).arrAt_eq_of_cover 3 (outArr m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

/-- The reshape after the region reads the output array's one entry: the result is the mean. -/
theorem tail_eq (c : Dev nD) :
    Pipeline.afterTail₀ cfgs (dats m) 0 (V0 m) [hostOps1] c main_v1 = fun _ => meanOf m c := by
  unfold Pipeline.afterTail₀
  show StableHlo.after hostOps1 _ (Proc.devRef .tc main_v1) = _
  after_results
  funext i
  show shapeCast S_ (Pipeline.withArrays spec0 c (V0 m c) (fun w => (dats m 0 c).arrAt w cfg0.N)
    (Proc.devRef .tc (Pipeline.arrRef spec0 3))) shapeCasts_S1x1_S_ i = _
  rw [Pipeline.withArrays_arr spec0 launch0.win.arr_inj c _ _ 3, final_out]
  rfl

/-- Every weakly fair execution ends with the result at the mean and the argument vectors unchanged. -/
theorem run : θ_run defs (onTc (τ := τ) (main (F := Ideal))) ⟨m, fun _ => 0, ρ⟩ fun r => ∀ c : Dev nD,
      r.2.mem ((c.tc : Thread nD τ).loc main_v1) = (fun _ => meanOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v1 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Mean

end
-- ==== Proof.RefValue.lean ====
/-
  The reference's result, read on the extended reals, is the mean pairwise hinge.

  The reference spreads each vector along rows and along columns to 8192 × 8192, so entry (a, b) of its loss matrix is
  the hinge of the pair (a, b) — direction by two selects with the sign function at a tie, times the weight sum, times
  one half, times the score difference, subtracted from the margin and clipped at zero (`loss_apply`). Its sum over
  both axes is the initial zero plus the sum over every entry, that is over every pair, and the quotient by the pair
  count is the mean (`result_eq`).
-/
import proofs.«179843_j19138374271444_1_alg».proof.Proof.Gen.ReferenceIdeal.Read
import proofs.«179843_j19138374271444_1_alg».proof.Proof.PairLoss

noncomputable section

open scoped BigOperators

namespace Cert.ReferenceIdeal.RefValue

open Cert.ReferenceIdeal Cert.ReferenceIdeal.Read Idealize.ShloMosaic Idealize.ShloMosaic.ValueIdx Cert.PairLoss

/-! ## Which entry of a vector a matrix entry reads -/

theorem row0 (a b : Fin 8192) : idx_main_v0 (idx_main_v2 (ix2 a b)) = ix1 a :=
  funext fun d => match d with | ⟨0, _⟩ => rfl
theorem col0 (a b : Fin 8192) : idx_main_v1 (idx_main_v3 (ix2 a b)) = ix1 b :=
  funext fun d => match d with | ⟨0, _⟩ => rfl
theorem row1 (a b : Fin 8192) : idx_main_v5 (idx_main_v7 (ix2 a b)) = ix1 a :=
  funext fun d => match d with | ⟨0, _⟩ => rfl
theorem col1 (a b : Fin 8192) : idx_main_v6 (idx_main_v8 (ix2 a b)) = ix1 b :=
  funext fun d => match d with | ⟨0, _⟩ => rfl
theorem row2 (a b : Fin 8192) : idx_main_v18 (idx_main_v20 (ix2 a b)) = ix1 a :=
  funext fun d => match d with | ⟨0, _⟩ => rfl
theorem col2 (a b : Fin 8192) : idx_main_v19 (idx_main_v21 (ix2 a b)) = ix1 b :=
  funext fun d => match d with | ⟨0, _⟩ => rfl

/-- Entry (a, b) of the reference's loss matrix is the hinge of the pair (a, b). -/
theorem loss_apply (x0 x1 x2 : Vec Ideal S8192 .f32) (a b : Fin 8192) :
    val_main_v30 (F := Ideal) x0 x1 x2 (ix2 a b) = lossAt x0 x1 x2 a b := by
  simp only [val_main_v30_apply, val_main_v29_apply, val_main_cst_5_apply, val_main_v28_apply, val_main_v27_apply, val_main_cst_4_apply, val_main_v26_apply, val_main_v25_apply, val_main_v24_apply, val_main_cst_3_apply, val_main_v23_apply, val_main_v22_apply, val_main_v21_apply, val_main_v20_apply, val_main_v19_apply, val_main_v18_apply, val_main_v17_apply, val_main_call1_v1_apply, val_main_call1_v0_apply, val_main_cst_2_apply, val_main_v16_apply, val_main_call0_v1_apply, val_main_call0_v0_apply, val_main_cst_1_apply, val_main_v15_apply, val_main_v14_apply, val_main_v13_apply, val_main_v12_apply, val_main_cst_0_apply, val_main_v11_apply, val_main_v10_apply, val_main_cst_apply, val_main_v9_apply, val_main_v8_apply, val_main_v7_apply, val_main_v6_apply, val_main_v5_apply, val_main_v4_apply, val_main_v3_apply, val_main_v2_apply, val_main_v1_apply, val_main_v0_apply]
  simp only [row0, col0, row1, col1, row2, col2]
  rfl

/-- The reference's result is the mean. -/
theorem result_eq (x0 x1 x2 : Vec Ideal S8192 .f32) (i : S_.Idx) :
    val_main_v32 (F := Ideal) x0 x1 x2 i = mean x0 x1 x2 := by
  rw [val_main_v32_apply, val_main_v31_apply, val_main_cst_7_apply, val_main_cst_6_apply, sum_idx2]
  simp only [loss_apply]
  rfl

end Cert.ReferenceIdeal.RefValue

end
-- ==== Proof.lean ====
/-
  The proof of `Cert.Claim`: the three frames, the idealization's ledger, and the equality of the two idealized programs.

  Both idealized programs compute, on the extended reals, the mean over all 8192² ordered pairs (a, b) of the hinge
      max 0 (margin - dir · (w a + w b) · ½ · (p a - p b)),
  `dir` the sign of the score difference `p a - p b` and, at a tie, minus the sign of the label difference.
  * The reference forms the 8192 × 8192 matrix of hinges, sums it from zero, and divides by the pair count
    (Proof/RefValue.lean).
  * The kernel walks the 8 × 8 tiles of 1024 × 1024 pairs, adds each tile's sum to an accumulator reset to zero at the
    first tile, and after the last tile writes the accumulator divided by the pair count; it spells the tie-break with
    two comparisons and halves the weight sum before multiplying (Proof/TileSum.lean, Proof/Cases.lean,
    Proof/Accumulate.lean, Proof/KernelValue.lean).
  The two agree because a finite sum in a commutative monoid may be regrouped into tiles, because a product may be
  re-associated, and because `0 - (if g > 0 then 1 else if g < 0 then -1 else 0)` is `-sign g` (Proof/PairLoss.lean);
  none of these needs the arguments to be finite, so the precondition is not opened. The idealization rewrote nothing,
  so its ledger is empty; the kernel's frames are the generated frame certificates and the reference's frame is its
  generated run with the result dropped.
-/
import proofs.«179843_j19138374271444_1_alg».proof.Defs
import proofs.«179843_j19138374271444_1_alg».proof.Proof.Gen.Kernel
import proofs.«179843_j19138374271444_1_alg».proof.Proof.Gen.Kernel.Frame
import proofs.«179843_j19138374271444_1_alg».proof.Proof.Gen.KernelIdeal
import proofs.«179843_j19138374271444_1_alg».proof.Proof.Gen.KernelIdeal.Frame
import proofs.«179843_j19138374271444_1_alg».proof.Proof.Gen.ReferenceIdeal
import proofs.«179843_j19138374271444_1_alg».proof.Proof.Gen.ReferenceIdeal.Run
import proofs.«179843_j19138374271444_1_alg».proof.Proof.Gen.ReferenceIdeal.Read
import proofs.«179843_j19138374271444_1_alg».proof.Proof.Gen.Pre_finite_inputs
import proofs.«179843_j19138374271444_1_alg».proof.Proof.KernelValue
import proofs.«179843_j19138374271444_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the mean pairwise hinge of arguments that agree. -/
theorem algebraic : Cert.algebraic_KernelIdeal_ReferenceIdeal := by
  intro m ρ m' ρ' _ hagree
  refine ⟨fun c => fun _ => Cert.KernelIdeal.Mean.meanOf m c, Cert.KernelIdeal.Mean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2]
  exact funext fun i => Cert.ReferenceIdeal.RefValue.result_eq _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
